-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x6144 : Shape := ⟨2, ![8192, 6144]⟩
abbrev S768x6144 : Shape := ⟨2, ![768, 6144]⟩
abbrev S_ : Shape := ⟨0, ![]⟩

class Facts : Prop where
  bitsLt_bf16_f32 : FTy.bits .bf16 < FTy.bits .f32
  bcast_S_S8192x6144 : S_.BroadcastsInDim S8192x6144 (![] : Fin 0 → Fin S8192x6144.rank)
  reducesTo_S8192x6144_S_d0_1 : S8192x6144.ReducesTo [0, 1] S_
  h_S_ : 0 < S_.numel
  bcast_S_S768x6144 : S_.BroadcastsInDim S768x6144 (![] : Fin 0 → Fin S768x6144.rank)
  reducesTo_S768x6144_S_d0_1 : S768x6144.ReducesTo [0, 1] S_

variable [Facts]

def fn {F : FTy → Type} [FloatOps F] (main_arg0 : FVec F S8192x6144 .bf16) (main_arg1 : FVec F S768x6144 .bf16) : IVec S_ 1 :=
  let main_v0 : FVec F S8192x6144 .f32 := (extf .f32 · bitsLt_bf16_f32) main_arg0
  let main_v1 : FVec F S8192x6144 .f32 := Host.absf main_v0
  let main_cst : FVec F S_ .f32 := constant S_ .f32 0x7F800000#32
  let main_v2 : FVec F S8192x6144 .f32 := broadcastInDim S8192x6144 ![] bcast_S_S8192x6144 main_cst
  let main_v3 : IVec S8192x6144 1 := cmpf .olt main_v1 main_v2
  let main_c : IVec S_ 1 := constantI S_ 1 1#1
  let main_v4 : IVec S_ 1 := (fun x v => Host.reduce IntOp.andi x v reducesTo_S8192x6144_S_d0_1 h_S_) main_v3 main_c
  let main_v5 : FVec F S768x6144 .f32 := (extf .f32 · bitsLt_bf16_f32) main_arg1
  let main_v6 : FVec F S768x6144 .f32 := Host.absf main_v5
  let main_cst_0 : FVec F S_ .f32 := constant S_ .f32 0x7F800000#32
  let main_v7 : FVec F S768x6144 .f32 := broadcastInDim S768x6144 ![] bcast_S_S768x6144 main_cst_0
  let main_v8 : IVec S768x6144 1 := cmpf .olt main_v6 main_v7
  let main_c_1 : IVec S_ 1 := constantI S_ 1 1#1
  let main_v9 : IVec S_ 1 := (fun x v => Host.reduce IntOp.andi x v reducesTo_S768x6144_S_d0_1 h_S_) main_v8 main_c_1
  let main_v10 : IVec S_ 1 := andi main_v4 main_v9
  main_v10
-- ==== Kernel.lean ====
abbrev S8192x6144 : Shape := ⟨2, ![8192, 6144]⟩
abbrev S768x6144 : Shape := ⟨2, ![768, 6144]⟩
abbrev S8192x768 : Shape := ⟨2, ![8192, 768]⟩
abbrev S1024x1536 : Shape := ⟨2, ![1024, 1536]⟩
abbrev S768x1536 : Shape := ⟨2, ![768, 1536]⟩
abbrev S1024x768 : Shape := ⟨2, ![1024, 768]⟩

abbrev nBuf : Space → Nat
  | .hbm => 3
  | .vmem => 7
  | .smem => 0
  | _ => 0

abbrev bufTy : (tb : Table) → Fin (tcTables nBuf tb) → BufTy
  | .hbm, ⟨0, _⟩ => ⟨S8192x6144, .bf16⟩
  | .hbm, ⟨1, _⟩ => ⟨S768x6144, .bf16⟩
  | .hbm, ⟨2, _⟩ => ⟨S8192x768, .f32⟩
  | .local _ .vmem, ⟨0, _⟩ => ⟨S1024x1536, .bf16⟩
  | .local _ .vmem, ⟨1, _⟩ => ⟨S1024x1536, .bf16⟩
  | .local _ .vmem, ⟨2, _⟩ => ⟨S768x1536, .bf16⟩
  | .local _ .vmem, ⟨3, _⟩ => ⟨S768x1536, .bf16⟩
  | .local _ .vmem, ⟨4, _⟩ => ⟨S1024x768, .f32⟩
  | .local _ .vmem, ⟨5, _⟩ => ⟨S1024x768, .f32⟩
  | .local _ .vmem, ⟨6, _⟩ => ⟨S1024x768, .f32⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S768x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  inb_S1024x1536_S1024x1536_0_0 : ∀ a, (![0, 0] : Fin 2 → Nat) a + S1024x1536.size a ≤ S1024x1536.size a
  h_S1024x1536 : 0 < S1024x1536.numel
  inb_S768x1536_S768x1536_0_0 : ∀ a, (![0, 0] : Fin 2 → Nat) a + S768x1536.size a ≤ S768x1536.size a
  h_S768x1536 : 0 < S768x1536.numel
  dot_S1024x1536_S768x1536_S1024x768_1_1_0_0_n_n_wf : DotDims.WF S1024x1536 S768x1536 S1024x768 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1536.size a ≤ S8192x6144.size a
  hwx0_0 : ∀ i : grid0.Coords, EltTy.bits .bf16 = 32 ∨ (Rect.block (s := S8192x6144) S1024x1536.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S768x1536.size a ≤ S768x6144.size a
  hwx0_1 : ∀ i : grid0.Coords, EltTy.bits .bf16 = 32 ∨ (Rect.block (s := S768x6144) S768x1536.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x768.size a ≤ S8192x768.size a
  hwx0_2 : ∀ i : grid0.Coords, EltTy.bits .f32 = 32 ∨ (Rect.block (s := S8192x768) S1024x768.size (cc0_transform_2 i) (hinb0_2 i)).WholeWords (EltTy.packing .f32)

variable [Facts₀]

def dot_S1024x1536_S768x1536_S1024x768_1_1_0_0_n_n : DotDims S1024x1536 S768x1536 S1024x768 where
  lhsContracting := [1]
  rhsContracting := [1]
  lhsNonContracting := [0]
  rhsNonContracting := [0]
  lhsBatch := []
  rhsBatch := []
  wf := dot_S1024x1536_S768x1536_S1024x768_1_1_0_0_n_n_wf

abbrev win0_0 : Pipeline.Window sig grid0 :=
  Pipeline.Window.ofSpec (Memref.whole main_arg0) S1024x1536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S768x1536.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x768.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8192x6144 : Shape := ⟨2, ![8192, 6144]⟩
abbrev S768x6144 : Shape := ⟨2, ![768, 6144]⟩
abbrev S8192x768 : Shape := ⟨2, ![8192, 768]⟩

abbrev nBuf : Space → Nat
  | .hbm => 5
  | .vmem => 0
  | .smem => 0
  | _ => 0

abbrev bufTy : (tb : Table) → Fin (tcTables nBuf tb) → BufTy
  | .hbm, ⟨0, _⟩ => ⟨S8192x6144, .bf16⟩
  | .hbm, ⟨1, _⟩ => ⟨S768x6144, .bf16⟩
  | .hbm, ⟨2, _⟩ => ⟨S8192x6144, .f32⟩
  | .hbm, ⟨3, _⟩ => ⟨S768x6144, .f32⟩
  | .hbm, ⟨4, _⟩ => ⟨S8192x768, .f32⟩
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  bitsLt_bf16_f32 : FTy.bits .bf16 < FTy.bits .f32
  dot_S8192x6144_S768x6144_S8192x768_1_1_0_0_n_n_wf : DotDims.WF S8192x6144 S768x6144 S8192x768 [1] [1] [0] [0] [] []

variable [Facts₀]

def dot_S8192x6144_S768x6144_S8192x768_1_1_0_0_n_n : DotDims S8192x6144 S768x6144 S8192x768 where
  lhsContracting := [1]
  rhsContracting := [1]
  lhsNonContracting := [0]
  rhsNonContracting := [0]
  lhsBatch := []
  rhsBatch := []
  wf := dot_S8192x6144_S768x6144_S8192x768_1_1_0_0_n_n_wf

class Facts : Prop extends Facts₀ where

variable [Facts]
-- ==== Proof.Pieces.lean ====
/-
  What one grid point leaves behind, as values.

  The body keeps a [1024, 768] accumulator between grid points. At every point it overwrites the accumulator with
  `step acc a b`: the accumulator's old contents `acc` plus the product of the point's [1024, 1536] block `a` of the
  left matrix with the transpose of the point's [768, 1536] block `b` of the right matrix (the payload `k0_pay2`).
  At the first point of a row of the grid (column 0 of 4) it first stores zeros (the payload `k0_pay1`), so `acc` is the
  zero block there; at the last point of a row (column 3) it then copies the accumulator to the output block.

  The three cases of the body's two conditionals therefore leave:
    first column   : accumulator  = step 0   a b     (the stored zeros are read back, then overwritten)
    middle columns : accumulator  = step acc a b
    last column    : accumulator  = step acc a b,  output block = the same value (read back from the accumulator)
  Each is read off the list of stores the run of the case found, all of which are whole-block stores, so the last
  store decides the contents and a load after a store reads the stored value. Nothing here depends on what a float is.
-/
import proofs.«173181_j78752520339554_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- Every load and store of the body starts at the origin of its block. -/
theorem hz : (![0, 0] : Fin 2 → Nat) = fun _ => 0 := funext fun a => by fin_cases a <;> rfl

/-- Middle columns: the accumulator ends at the old accumulator plus this point's block product. -/
theorem scratch_mid (c : Dev nD) (i : grid0.Coords) (a2 : Memref sig .tc .vmem S1024x1536 .bf16) (h2 : a2.IsWhole)
    (a3 : Memref sig .tc .vmem S768x1536 .bf16) (h3 : a3.IsWhole) (a4 : Memref sig .tc .vmem S1024x768 .f32) (h4 : a4.IsWhole)
    (a5 : Memref sig .tc .vmem S1024x768 .f32) (h5 : a5.IsWhole) (hc0 : ¬cond0_0 i) (hc1 : ¬cond0_1 i)
    (x0 : Vec F S1024x1536 .bf16) (x1 : Vec F S768x1536 .bf16) (xs : Vec F S1024x768 .f32) :
    sout0_B_0 c i a2 h2 a3 h3 a4 h4 a5 h5 hc0 hc1 x0 x1 xs = k0_pay2 xs x0 x1 := by
  unfold sout0_B_0
  rw [View.read_writes_eq_canon _ _ _ (scover0_B_0 c i a2 h2 a3 h3 a4 h4 a5 h5 hc0 hc1 x0 x1 xs)]
  unfold kernelRun0_B
  dsimp only
  rw [View.canon_unit_zero hz]
  simp only [View.readAt_eq_ld, h5.read_unread, h2.read_unread, h3.read_unread, View.ld_unit_zero (S := S1024x768) hz,
    View.ld_unit_zero (S := S1024x1536) hz, View.ld_unit_zero (S := S768x1536) hz]

/-- First column: zeros are stored, read back, and the accumulator ends at zero plus this point's block product. -/
theorem scratch_first (c : Dev nD) (i : grid0.Coords) (a2 : Memref sig .tc .vmem S1024x1536 .bf16) (h2 : a2.IsWhole)
    (a3 : Memref sig .tc .vmem S768x1536 .bf16) (h3 : a3.IsWhole) (a4 : Memref sig .tc .vmem S1024x768 .f32) (h4 : a4.IsWhole)
    (a5 : Memref sig .tc .vmem S1024x768 .f32) (h5 : a5.IsWhole) (hc0 : cond0_0 i) (hc1 : ¬cond0_1 i)
    (x0 : Vec F S1024x1536 .bf16) (x1 : Vec F S768x1536 .bf16) :
    sout0_A_0 c i a2 h2 a3 h3 a4 h4 a5 h5 hc0 hc1 x0 x1 = k0_pay2 (k0_pay1 (F := F)) x0 x1 := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1024x768) hz, View.readCov_unit_zero (S := S1024x768) _ hz]
  simp only [View.readAt_eq_ld, h5.read_unread, h2.read_unread, h3.read_unread, View.ld_unit_zero (S := S1024x768) hz,
    View.ld_unit_zero (S := S1024x1536) hz, View.ld_unit_zero (S := S768x1536) hz]

/-- Last column: the accumulator ends at the old accumulator plus this point's block product, -/
theorem scratch_last (c : Dev nD) (i : grid0.Coords) (a2 : Memref sig .tc .vmem S1024x1536 .bf16) (h2 : a2.IsWhole)
    (a3 : Memref sig .tc .vmem S768x1536 .bf16) (h3 : a3.IsWhole) (a4 : Memref sig .tc .vmem S1024x768 .f32) (h4 : a4.IsWhole)
    (a5 : Memref sig .tc .vmem S1024x768 .f32) (h5 : a5.IsWhole) (hc0 : ¬cond0_0 i) (hc1 : cond0_1 i)
    (x0 : Vec F S1024x1536 .bf16) (x1 : Vec F S768x1536 .bf16) (xs : Vec F S1024x768 .f32) :
    sout0_C_0 c i a2 h2 a3 h3 a4 h4 a5 h5 hc0 hc1 x0 x1 xs = k0_pay2 xs x0 x1 := by
  unfold sout0_C_0
  rw [View.read_writes_eq_canon _ _ _ (scover0_C_0 c i a2 h2 a3 h3 a4 h4 a5 h5 hc0 hc1 x0 x1 xs)]
  unfold kernelRun0_C
  dsimp only
  sl_unfold_words
  rw [View.canon_unit_zero hz]
  simp only [View.readAt_eq_ld, h5.read_unread, h2.read_unread, h3.read_unread, View.ld_unit_zero (S := S1024x768) hz,
    View.ld_unit_zero (S := S1024x1536) hz, View.ld_unit_zero (S := S768x1536) hz]

/-- and the output block is a copy of it. -/
theorem out_last (c : Dev nD) (i : grid0.Coords) (a2 : Memref sig .tc .vmem S1024x1536 .bf16) (h2 : a2.IsWhole)
    (a3 : Memref sig .tc .vmem S768x1536 .bf16) (h3 : a3.IsWhole) (a4 : Memref sig .tc .vmem S1024x768 .f32) (h4 : a4.IsWhole)
    (a5 : Memref sig .tc .vmem S1024x768 .f32) (h5 : a5.IsWhole) (hc0 : ¬cond0_0 i) (hc1 : cond0_1 i)
    (x0 : Vec F S1024x1536 .bf16) (x1 : Vec F S768x1536 .bf16) (xs : Vec F S1024x768 .f32) :
    out0_C_2 c i a2 h2 a3 h3 a4 h4 a5 h5 hc0 hc1 x0 x1 xs = k0_pay2 xs x0 x1 := by
  unfold out0_C_2
  rw [View.read_writes_eq_canon _ _ _ (cover0_C_2 c i a2 h2 a3 h3 a4 h4 a5 h5 hc0 hc1 x0 x1 xs)]
  unfold kernelRun0_C
  dsimp only
  sl_unfold_words
  rw [View.canon_unit_zero hz, View.readCov_unit_zero (S := S1024x768) _ hz]
  simp only [View.readAt_eq_ld, h5.read_unread, h2.read_unread, h3.read_unread, View.ld_unit_zero (S := S1024x768) hz,
    View.ld_unit_zero (S := S1024x1536) hz, View.ld_unit_zero (S := S768x1536) hz]

end Cert.KernelIdeal.Pieces

end
-- ==== Proof.LibRowDot.lean ====
/-
  A matrix product whose right factor is contracted along its SECOND axis: `x · wᵀ` without a separate transposition.

  A matrix unit fed an `R × K` left factor and an `N × K` right factor, with dimension numbers that contract the
  second axis of both (`[1] × [1]`, nothing batched), accumulated into the zero matrix and read at exact arithmetic, is
  at the entry `(p, n)` the sum over the contracted coordinate `a : Fin K` of `l (p, a) * r (n, a)`; accumulated into any
  matrix `acc` it is `acc (p, n)` plus that sum. The four hypotheses say the dimension numbers are the ones described:
  each factor's index takes its row from the output index (the left factor from the output's row, the right factor
  from the output's column) and its column from the contraction index. Any extents, any float formats of the factors.
-/
import Idealize.ShloMosaic.PureOps.Ideal.Laws
import Idealize.ShloMosaic.Lib.ValueIdx

noncomputable section

open scoped BigOperators

namespace Cert.LibRowDot

open Idealize.ShloMosaic Idealize.ShloMosaic.ValueIdx

/-- `x · wᵀ` accumulated into `acc`, read at `(p, n)` in exact arithmetic: `acc (p, n) + ∑ a, l (p, a) * r (n, a)`. -/
theorem matmul_rows {R K N : Nat} {φ₁ φ₂ : FTy}
    (D : DotDims ⟨2, ![R, K]⟩ ⟨2, ![N, K]⟩ ⟨2, ![R, N]⟩) (hr : D.contr.rank = 1)
    (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (i 1).val)
    (hr1 : ∀ i q, (D.rhsIdx i q 1).val = (q ⟨0, by omega⟩).val)
    (prec : Option ContractPrecision) (l : FVec Ideal ⟨2, ![R, K]⟩ φ₁) (r : FVec Ideal ⟨2, ![N, K]⟩ φ₂)
    (acc : FVec Ideal ⟨2, ![R, N]⟩ .f32) (p : Fin R) (n : Fin N) :
    FloatOps.matmul D prec l r acc (ix2 p n) = acc (ix2 p n) + ∑ a : Fin K, l (ix2 p a) * r (ix2 n a) := by
  rw [Ideal.matmul_apply, ← Equiv.sum_comp (contrEquiv1 D K hr hs).symm]
  refine congrArg (acc (ix2 p n) + ·) (Finset.sum_congr rfl fun k _ => ?_)
  have hk := contrEquiv1_symm_val D K hr hs k
  have el : D.lhsIdx (ix2 p n) ((contrEquiv1 D K hr hs).symm k) = ix2 p k := funext fun a => Fin.ext (by
    match a with
    | ⟨0, _⟩ => exact hl0 _ _
    | ⟨1, _⟩ => exact (hl1 _ _).trans hk)
  have er : D.rhsIdx (ix2 p n) ((contrEquiv1 D K hr hs).symm k) = ix2 n k := funext fun a => Fin.ext (by
    match a with
    | ⟨0, _⟩ => exact hr0 _ _
    | ⟨1, _⟩ => exact (hr1 _ _).trans hk)
  rw [el, er]

/-- The same accumulated into the zero matrix: the sum alone. -/
theorem matmul_rows_zero {R K N : Nat} {φ₁ φ₂ : FTy}
    (D : DotDims ⟨2, ![R, K]⟩ ⟨2, ![N, K]⟩ ⟨2, ![R, N]⟩) (hr : D.contr.rank = 1)
    (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (i 1).val)
    (hr1 : ∀ i q, (D.rhsIdx i q 1).val = (q ⟨0, by omega⟩).val)
    (prec : Option ContractPrecision) (l : FVec Ideal ⟨2, ![R, K]⟩ φ₁) (r : FVec Ideal ⟨2, ![N, K]⟩ φ₂)
    (p : Fin R) (n : Fin N) :
    FloatOps.matmul D prec l r (constant ⟨2, ![R, N]⟩ .f32 0x00000000#32) (ix2 p n)
      = ∑ a : Fin K, l (ix2 p a) * r (ix2 n a) := by
  rw [matmul_rows D hr hs hl0 hl1 hr0 hr1 prec l r _ p n]
  show Ideal.ofBits .f32 0x00000000#32 + _ = _
  rw [Ideal.ofBits_zero_f32, zero_add]

end Cert.LibRowDot

end
-- ==== Proof.Payload.lean ====
/-
  One step of the accumulation, entry by entry, in exact arithmetic.

  `step acc a b` (the body's stored value `k0_pay2`) is the old accumulator plus the matrix unit's product of the
  [1024, 1536] block `a` with the [768, 1536] block `b`, both contracted along their second axis, started from zeros.
  At the entry `(p, q)` that is `acc (p, q) + ∑ h < 1536, a (p, h) * b (q, h)`. The zero block the first column stores
  (`k0_pay1`) is `0` at every entry.
-/
import proofs.«173181_j78752520339554_1_alg».proof.Proof.Gen.KernelIdeal.Skeleton
import proofs.«173181_j78752520339554_1_alg».proof.Proof.LibRowDot
import Idealize.ShloMosaic.Lib.Pipeline.Value
import Idealize.ShloMosaic.Lib.ValueIdx
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-- The matrix unit's dimension numbers: both blocks contracted along their second axis. -/
abbrev dims := dot_S1024x1536_S768x1536_S1024x768_1_1_0_0_n_n

/-- The left block is read at the output's row … -/
theorem lhs_row (i : S1024x768.Idx) (k : dims.contr.Idx) : (dims.lhsIdx i k 0).val = (i 0).val := by
  unfold DotDims.lhsIdx
  rw [dif_neg (show ¬(0 : Fin S1024x1536.rank) ∈ dims.lhsBatch by decide),
    dif_pos (show (0 : Fin S1024x1536.rank) ∈ dims.lhsNonContracting by decide)]
  rfl
/-- … and the contracted coordinate; -/
theorem lhs_col (i : S1024x768.Idx) (k : dims.contr.Idx) : (dims.lhsIdx i k 1).val = (k ⟨0, by decide⟩).val :=
  dims.lhsIdx_val_of_single rfl i k
/-- the right block at the output's column … -/
theorem rhs_row (i : S1024x768.Idx) (k : dims.contr.Idx) : (dims.rhsIdx i k 0).val = (i 1).val := by
  unfold DotDims.rhsIdx
  rw [dif_neg (show ¬(0 : Fin S768x1536.rank) ∈ dims.rhsBatch by decide),
    dif_pos (show (0 : Fin S768x1536.rank) ∈ dims.rhsNonContracting by decide)]
  rfl
/-- … and the contracted coordinate. -/
theorem rhs_col (i : S1024x768.Idx) (k : dims.contr.Idx) : (dims.rhsIdx i k 1).val = (k ⟨0, by decide⟩).val :=
  dims.rhsIdx_val_of_single rfl i k

/-- The stored zero block is zero at every entry. -/
theorem zeros_apply (i : S1024x768.Idx) : k0_pay1 (F := Ideal) i = 0 := by
  unfold k0_pay1
  refine (congrFun (shapeCast_self _ _) i).trans ?_
  exact Ideal.ofBits_zero_f32

/-- One step at the entry `(p, q)`: the old accumulator there plus the blocks' inner product of rows `p` and `q`. -/
theorem step_apply (acc : Vec Ideal S1024x768 .f32) (a : Vec Ideal S1024x1536 .bf16) (b : Vec Ideal S768x1536 .bf16)
    (p : Fin 1024) (q : Fin 768) :
    k0_pay2 (F := Ideal) acc a b (ix2 p q) = acc (ix2 p q) + ∑ h : Fin 1536, a (ix2 p h) * b (ix2 q h) := by
  unfold k0_pay2
  refine (congrFun (shapeCast_self _ _) (ix2 p q)).trans ?_
  refine (addf_apply _ _ _).trans ?_
  exact congrArg (acc (ix2 p q) + ·)
    (Cert.LibRowDot.matmul_rows_zero dims rfl rfl lhs_row lhs_col rhs_row rhs_col none a b p q)

end Cert.KernelIdeal.Payload

end
-- ==== Proof.Blocks.lean ====
/-
  Which entries of the argument arrays a grid point sees.

  The grid has 8 rows of 4 points; point `t` is in row `t / 4` and column `t % 4`. There the left window holds the
  [1024, 1536] block of the hidden states whose rows start at `1024 * (t / 4)` and whose columns start at
  `1536 * (t % 4)`, the right window the [768, 1536] block of the weights with all 768 rows and the same columns, and the
  output window the [1024, 768] block of the result whose rows start at `1024 * (t / 4)`.
-/
import proofs.«173181_j78752520339554_1_alg».proof.Proof.Gen.KernelIdeal.Frame.Runs
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-- The block indices of the three windows at point `t`, decided over the 32 points. -/
theorem index_lhs : ∀ t : Fin cfg0.N, win0_0.index t 0 = t.val / 4 ∧ win0_0.index t 1 = t.val % 4 :=
  (by decide +kernel : ∀ t : Fin grid0.N, win0_0.index t 0 = t.val / 4 ∧ win0_0.index t 1 = t.val % 4)
theorem index_rhs : ∀ t : Fin cfg0.N, win0_1.index t 0 = 0 ∧ win0_1.index t 1 = t.val % 4 :=
  (by decide +kernel : ∀ t : Fin grid0.N, win0_1.index t 0 = 0 ∧ win0_1.index t 1 = t.val % 4)
theorem index_out : ∀ t : Fin cfg0.N, win0_2.index t 0 = t.val / 4 ∧ win0_2.index t 1 = 0 :=
  (by decide +kernel : ∀ t : Fin grid0.N, win0_2.index t 0 = t.val / 4 ∧ win0_2.index t 1 = 0)

/-- A point's row of the grid is below 8. -/
theorem row_lt (t : Fin cfg0.N) : t.val / 4 < 8 := by
  have h := lt_of_lt_of_eq t.isLt (show cfg0.N = 32 from N_0); omega

/-- Row `p` of the blocks at point `t` is row `1024 * (t / 4) + p` of the arrays, -/
abbrev arow (t : Fin cfg0.N) (p : Fin 1024) : Fin 8192 :=
  ⟨t.val / 4 * 1024 + p.val, by have := row_lt t; have := p.isLt; omega⟩
/-- and column `h` of the blocks is column `1536 * (t % 4) + h`. -/
abbrev acol (t : Fin cfg0.N) (h : Fin 1536) : Fin 6144 :=
  ⟨t.val % 4 * 1536 + h.val, by have := Nat.mod_lt t.val (by decide : 4 > 0); have := h.isLt; omega⟩

/-- The left window's block at point `t`, as a [1024, 1536] array, -/
def lblock (c : Dev nD) (t : Fin cfg0.N) : Vec F S1024x1536 .bf16 := iblk m c 0 t
/-- and the right window's, as a [768, 1536] array. -/
def rblock (c : Dev nD) (t : Fin cfg0.N) : Vec F S768x1536 .bf16 := iblk m c 1 t

/-- The left window's block at point `t`, entry `(p, h)`. -/
theorem lhs_block (c : Dev nD) (t : Fin cfg0.N) (p : Fin 1024) (h : Fin 1536) :
    lblock m c t (ix2 p h) = V m c main_arg0 (ix2 (arow t p) (acol t h)) := by
  unfold lblock iblk
  rw [View.read_apply]
  show V m c main_arg0 _ = V m c main_arg0 _
  congr 1
  funext a
  apply Fin.ext
  match a with
  | ⟨0, _⟩ => show win0_0.index t 0 * 1024 + 1 * p.val = t.val / 4 * 1024 + p.val; rw [(index_lhs t).1]; omega
  | ⟨1, _⟩ => show win0_0.index t 1 * 1536 + 1 * h.val = t.val % 4 * 1536 + h.val; rw [(index_lhs t).2]; omega

/-- The right window's block at point `t`, entry `(q, h)`. -/
theorem rhs_block (c : Dev nD) (t : Fin cfg0.N) (q : Fin 768) (h : Fin 1536) :
    rblock m c t (ix2 q h) = V m c main_arg1 (ix2 q (acol t h)) := by
  unfold rblock iblk
  rw [View.read_apply]
  show V m c main_arg1 _ = V m c main_arg1 _
  congr 1
  funext a
  apply Fin.ext
  match a with
  | ⟨0, _⟩ => show win0_1.index t 0 * 768 + 1 * q.val = q.val; rw [(index_rhs t).1]; omega
  | ⟨1, _⟩ => show win0_1.index t 1 * 1536 + 1 * h.val = t.val % 4 * 1536 + h.val; rw [(index_rhs t).2]; omega

end Cert.KernelIdeal.Blocks

end
-- ==== Proof.LibBlockSums.lean ====
/-
  A sum over a long axis taken block by block, as a running sum.

  Three facts in any commutative additive monoid (so in particular on the extended reals, where nothing beyond
  commutativity and associativity of + is used), and two float literals at exact arithmetic.

  * A sum over `Fin (A * B)` is the sum over the `A` blocks of the `B` block sums (`sum_blocks`).
  * The left-nested running sum `((z + s 0) + s 1) + … + s n` is `z` plus the sum of `s` over `0 … n` (`runSum_eq`).
  * Dividing by the literal 0.5 is multiplying by the literal 2.0, on every extended real (`div_half`).
-/
import Idealize.ShloMosaic.PureOps.Ideal.Laws

noncomputable section

open scoped BigOperators

namespace Cert.LibBlockSums

open Idealize.ShloMosaic

/-- A sum over `A * B` consecutive indices, block by block. -/
theorem sum_blocks {M : Type*} [AddCommMonoid M] (A B : Nat) (f : Fin (A * B) → M) :
    ∑ j, f j = ∑ a : Fin A, ∑ b : Fin B, f ⟨a.val * B + b.val, by
      have ha := a.isLt; have hb := b.isLt
      calc a.val * B + b.val < a.val * B + B := by omega
        _ = (a.val + 1) * B := by ring
        _ ≤ A * B := Nat.mul_le_mul_right B ha⟩ := by
  rw [← Equiv.sum_comp (finProdFinEquiv (m := A) (n := B)) f, Fintype.sum_prod_type]
  refine Finset.sum_congr rfl fun a _ => Finset.sum_congr rfl fun b _ => congrArg f (Fin.ext ?_)
  simp only [finProdFinEquiv_apply_val]
  rw [Nat.mul_comm]; omega

/-- The left-nested running sum of `s` started from `z`. -/
def runSum {M : Type*} [Add M] (z : M) (s : Nat → M) : Nat → M
  | 0 => z + s 0
  | n + 1 => runSum z s n + s (n + 1)

theorem runSum_eq {M : Type*} [AddCommMonoid M] (z : M) (s : Nat → M) (n : Nat) :
    runSum z s n = z + ∑ j ∈ Finset.range (n + 1), s j := by
  induction n with
  | zero => simp [runSum]
  | succ n ih => rw [runSum, ih, Finset.sum_range_succ _ (n + 1), add_assoc]

/-- Started from zero and run over all `A` blocks it is the sum over the blocks. -/
theorem runSum_zero_last {M : Type*} [AddCommMonoid M] (A : Nat) (s : Nat → M) :
    runSum 0 s A = ∑ a : Fin (A + 1), s a.val := by
  rw [runSum_eq, zero_add, Finset.sum_range]

/-- The float literal 2.0. -/
theorem ofBits_two : Ideal.ofBits .f32 0x40000000#32 = ((2 : ℝ) : EReal) := by
  simp [Ideal.ofBits, Ideal.ieee, -EReal.coe_mul]; norm_num

/-- The float literal 0.5. -/
theorem ofBits_half : Ideal.ofBits .f32 0x3F000000#32 = ((1 / 2 : ℝ) : EReal) := by
  simp [Ideal.ofBits, Ideal.ieee, -EReal.coe_mul]; norm_num

/-- On every extended real, the quotient by 0.5 is the product with 2.0. -/
theorem div_half (x : EReal) :
    Ideal.div x (Ideal.ofBits .f32 0x3F000000#32) = x * Ideal.ofBits .f32 0x40000000#32 := by
  rw [ofBits_half, ofBits_two, Ideal.div_coe (by norm_num : (1 / 2 : ℝ) ≠ 0)]
  norm_num

end Cert.LibBlockSums

end
-- ==== Proof.Spec.lean ====
/-
  The router logits as one function of the two argument arrays, and the one law the proof needs.

  With `X` the [8192, 6144] matrix of hidden states and `W` the [768, 6144] weight matrix, the logit of token `r` for
  expert `q` is the inner product of row `r` of `X` with row `q` of `W`,
      logit X W r q = ∑ k < 6144, X (r, k) * W (q, k),
  an extended real (an entry may be infinite; no entry is assumed finite anywhere below).

  The contracted axis of length 6144 = 4 * 1536 can be walked in four consecutive blocks of 1536: the inner product is
  the sum over the four blocks of the blocks' partial inner products (`logit_blocks`). Only commutativity and
  associativity of addition are used, which hold on the extended reals, so this needs no finiteness.
-/
import Idealize.ShloMosaic.PureOps.Ideal.Laws
import Idealize.ShloMosaic.Lib.ValueIdx
import proofs.«173181_j78752520339554_1_alg».proof.Proof.LibBlockSums

noncomputable section

open scoped BigOperators

namespace Cert.Spec

open Idealize.ShloMosaic Idealize.ShloMosaic.ValueIdx

/-- The shapes of the two arguments and of the result. -/
abbrev SX : Shape := ⟨2, ![8192, 6144]⟩
abbrev SW : Shape := ⟨2, ![768, 6144]⟩
abbrev SO : Shape := ⟨2, ![8192, 768]⟩

/-- The logit of token `r` for expert `q`: row `r` of `X` against row `q` of `W`. -/
def logit (X : SX.Idx → EReal) (W : SW.Idx → EReal) (r : Fin 8192) (q : Fin 768) : EReal :=
  ∑ k : Fin 6144, X (ix2 r k) * W (ix2 q k)

/-- All logits, as an array indexed like the result. -/
def logits (X : SX.Idx → EReal) (W : SW.Idx → EReal) : SO.Idx → EReal :=
  fun i => logit X W (i 0) (i 1)

/-- Position `h` of block `j` of the contracted axis. -/
abbrev pos (j : Fin 4) (h : Fin 1536) : Fin 6144 :=
  ⟨j.val * 1536 + h.val, by have := j.isLt; have := h.isLt; omega⟩

/-- The partial inner product over block `j` of the contracted axis. -/
def partialLogit (X : SX.Idx → EReal) (W : SW.Idx → EReal) (r : Fin 8192) (q : Fin 768) (j : Fin 4) : EReal :=
  ∑ h : Fin 1536, X (ix2 r (pos j h)) * W (ix2 q (pos j h))

/-- The inner product is the sum of its four block partial products. -/
theorem logit_blocks (X : SX.Idx → EReal) (W : SW.Idx → EReal) (r : Fin 8192) (q : Fin 768) :
    logit X W r q = ∑ j : Fin 4, partialLogit X W r q j := by
  unfold logit partialLogit
  exact Cert.LibBlockSums.sum_blocks 4 1536 (fun k : Fin (4 * 1536) => X (ix2 r k) * W (ix2 q k))

end Cert.Spec

end
-- ==== Proof.Accumulation.lean ====
/-
  The accumulator, point by point, and what a row of the grid finally writes back.

  Along a row of the grid (four points, columns 0 to 3) the accumulator is reset and then grows by one block product
  per point: after the point in column `k` it holds, at the entry `(p, q)`, the sum over the columns `0 … k` of that row of
  `∑ h < 1536, a (p, h) * b (q, h)`, where `a` and `b` are the two input blocks at the column's point (`part`).
  This is proved by induction on the point: a first-column point stores `0 + part`, a later point adds its `part` to what
  the point before left. No enumeration of the 32 points is made.

  A block product is a partial inner product of a row of the hidden states with a row of the weights over one block of
  1536 consecutive positions of the contracted axis (`part_eq`), and the four blocks make up the axis, so after the
  last column the accumulator, and with it the output block, holds the logits of the row's 1024 tokens (`out_entry`).
-/
import proofs.«173181_j78752520339554_1_alg».proof.Proof.Pieces
import proofs.«173181_j78752520339554_1_alg».proof.Proof.Payload
import proofs.«173181_j78752520339554_1_alg».proof.Proof.Blocks
import proofs.«173181_j78752520339554_1_alg».proof.Proof.Spec

noncomputable section

open scoped BigOperators

namespace Cert.KernelIdeal.Accumulation

open Cert.KernelIdeal Cert.KernelIdeal.Gen Idealize.ShloMosaic Idealize.ShloMosaic.TcCoe Idealize.SL.Sem
open Idealize.ShloMosaic.ValueIdx
open Cert.KernelIdeal.Blocks (lblock rblock)

/-! ## The accumulator after a point, from the accumulator before it (any float type) -/

section step

variable {F : FTy → Type} [FloatOps F]
variable (m : (ℓ : Loc nD τ sig) → Buf (Elt F) ℓ)

/-- After a first-column point the accumulator is one step from the zero block. -/
theorem scratch_first (c : Dev nD) (n : ℕ) (hn : n < cfg0.N) (h0 : n % 4 = 0) :
    (outsAt0 m c n hn).2 = k0_pay2 (k0_pay1 (F := F)) (lblock m c ⟨n, hn⟩) (rblock m c ⟨n, hn⟩) := by
  have h1 : ¬(⟨n, hn⟩ : Fin cfg0.N).val % 4 = 3 := by dsimp only; omega
  rw [outsAt0_A m c ⟨n, hn⟩ h0 h1]
  dsimp only
  exact Pieces.scratch_first c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) scM0_0 (Memref.isWhole_whole _) ((hcond0_0 ⟨n, hn⟩).mpr h0) (fun h => h1 ((hcond0_1 ⟨n, hn⟩).mp h)) (iblk m c 0 ⟨n, hn⟩) (iblk m c 1 ⟨n, hn⟩)

/-- After any later point it is one step from what the point before left. -/
theorem scratch_later (c : Dev nD) (n : ℕ) (hn : n + 1 < cfg0.N) (h0 : ¬(n + 1) % 4 = 0) :
    (outsAt0 m c (n + 1) hn).2
      = k0_pay2 (outsAt0 m c n (Nat.lt_of_succ_lt hn)).2 (lblock m c ⟨n + 1, hn⟩) (rblock m c ⟨n + 1, hn⟩) := by
  by_cases h1 : (n + 1) % 4 = 3
  · rw [outsAt0_C m c ⟨n + 1, hn⟩ h0 h1]
    dsimp only
    exact Pieces.scratch_last c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 m c n (Nat.lt_of_succ_lt hn)).2
  · rw [outsAt0_B m c ⟨n + 1, hn⟩ h0 h1]
    dsimp only
    exact Pieces.scratch_mid c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 m c n (Nat.lt_of_succ_lt hn)).2

/-- At a last-column point the output block is a copy of the accumulator. -/
theorem out_is_scratch (c : Dev nD) (t : Fin cfg0.N) (h1 : t.val % 4 = 3) :
    (outsAt0 m c t.val t.isLt).1 = (outsAt0 m c t.val t.isLt).2 := by
  have h0 : ¬t.val % 4 = 0 := by omega
  rw [outsAt0_C m c t h0 h1]
  dsimp only
  exact (Pieces.out_last c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2).trans
    (Pieces.scratch_last c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2).symm

end step

/-! ## In exact arithmetic: the accumulator is a sum of block products -/

variable (m : (ℓ : Loc nD τ sig) → Buf (Elt Ideal) ℓ)

/-- The block product at point `k`, entry `(p, q)`: row `p` of the left block against row `q` of the right block (and
    zero for a `k` that is no point of the grid, which no statement below reaches). -/
def part (c : Dev nD) (k : ℕ) (p : Fin 1024) (q : Fin 768) : EReal :=
  if hk : k < cfg0.N then ∑ h : Fin 1536, lblock m c ⟨k, hk⟩ (ix2 p h) * rblock m c ⟨k, hk⟩ (ix2 q h) else 0

theorem part_at (c : Dev nD) (k : ℕ) (hk : k < cfg0.N) (p : Fin 1024) (q : Fin 768) :
    part m c k p q = ∑ h : Fin 1536, lblock m c ⟨k, hk⟩ (ix2 p h) * rblock m c ⟨k, hk⟩ (ix2 q h) :=
  dif_pos hk

/-- One step at point `k` adds that point's block product. -/
theorem step_at (c : Dev nD) (k : ℕ) (hk : k < cfg0.N) (acc : Vec Ideal S1024x768 .f32) (p : Fin 1024) (q : Fin 768) :
    k0_pay2 (F := Ideal) acc (lblock m c ⟨k, hk⟩) (rblock m c ⟨k, hk⟩) (ix2 p q) = acc (ix2 p q) + part m c k p q :=
  (Payload.step_apply acc (lblock m c ⟨k, hk⟩) (rblock m c ⟨k, hk⟩) p q).trans
    (congrArg (acc (ix2 p q) + ·) (part_at m c k hk p q).symm)

/-- THE INVARIANT. After point `n`, in column `n % 4` of its row, the accumulator holds the sum of the block products of
    the row's points up to and including `n` (the row starts at point `n - n % 4`). -/
theorem scratch_entry (c : Dev nD) (p : Fin 1024) (q : Fin 768) : ∀ (n : ℕ) (hn : n < cfg0.N),
    (outsAt0 m c n hn).2 (ix2 p q) = ∑ j ∈ Finset.range (n % 4 + 1), part m c (n - n % 4 + j) p q := by
  intro n
  induction n with
  | zero =>
    intro hn
    rw [scratch_first m c 0 hn (Nat.zero_mod 4)]
    refine (step_at m c 0 hn _ p q).trans ?_
    rw [Payload.zeros_apply, zero_add]
    simp only [Nat.zero_mod, Nat.sub_zero, Nat.zero_add, Finset.sum_range_one]
  | succ n ih =>
    intro hn
    have hN : n + 1 < 32 := lt_of_lt_of_eq hn (show cfg0.N = 32 from N_0)
    by_cases h0 : (n + 1) % 4 = 0
    · rw [scratch_first m c (n + 1) hn h0]
      refine (step_at m c (n + 1) hn _ p q).trans ?_
      rw [Payload.zeros_apply, zero_add, h0]
      exact (Finset.sum_range_one (fun j => part m c (n + 1 - 0 + j) p q)).symm
    · rw [scratch_later m c n hn h0]
      refine (step_at m c (n + 1) hn _ p q).trans ?_
      have e1 : (n + 1) % 4 = n % 4 + 1 := by omega
      have e2 : n + 1 - (n % 4 + 1) = n - n % 4 := by omega
      have e3 : n - n % 4 + (n % 4 + 1) = n + 1 := by omega
      rw [e1, e2, Finset.sum_range_succ, e3]
      exact congrArg (· + part m c (n + 1) p q) (ih (Nat.lt_of_succ_lt hn))

/-- A point's block product is the partial inner product, over the block of the contracted axis that the point's
    column selects, of the token's row of the hidden states with the expert's row of the weights. -/
theorem part_eq (c : Dev nD) (t : Fin cfg0.N) (p : Fin 1024) (q : Fin 768) :
    part m c t.val p q = Cert.Spec.partialLogit (V m c main_arg0) (V m c main_arg1) (Blocks.arow t p) q
      ⟨t.val % 4, Nat.mod_lt _ (by decide)⟩ := by
  rw [part_at m c t.val t.isLt p q]
  unfold Cert.Spec.partialLogit
  refine Finset.sum_congr rfl fun h _ => ?_
  rw [Blocks.lhs_block m c t p h, Blocks.rhs_block m c t q h]

/-- WHAT A ROW WRITES BACK. At a last-column point the output block holds, at `(p, q)`, the logit of token
    `1024 * (t / 4) + p` for expert `q`. -/
theorem out_entry (c : Dev nD) (t : Fin cfg0.N) (h3 : t.val % 4 = 3) (p : Fin 1024) (q : Fin 768) :
    (outsAt0 m c t.val t.isLt).1 (ix2 p q)
      = Cert.Spec.logit (V m c main_arg0) (V m c main_arg1) (Blocks.arow t p) q := by
  have hN : t.val < 32 := lt_of_lt_of_eq t.isLt (show cfg0.N = 32 from N_0)
  have e4 : t.val % 4 + 1 = 4 := by omega
  rw [out_is_scratch m c t h3, scratch_entry m c p q t.val t.isLt, e4, h3, Cert.Spec.logit_blocks, Finset.sum_range]
  refine Finset.sum_congr rfl fun j _ => ?_
  have hj := j.isLt
  have hk : t.val - 3 + j.val < cfg0.N := lt_of_lt_of_eq (by omega) (show cfg0.N = 32 from N_0).symm
  refine (part_eq m c ⟨t.val - 3 + j.val, hk⟩ p q).trans ?_
  have er : Blocks.arow ⟨t.val - 3 + j.val, hk⟩ p = Blocks.arow t p := Fin.ext (by
    show (t.val - 3 + j.val) / 4 * 1024 + p.val = t.val / 4 * 1024 + p.val; omega)
  have ej : (⟨(t.val - 3 + j.val) % 4, Nat.mod_lt _ (by decide)⟩ : Fin 4) = j := Fin.ext (by
    show (t.val - 3 + j.val) % 4 = j.val; omega)
  rw [er]
  exact congrArg _ ej

end Cert.KernelIdeal.Accumulation

end
-- ==== Proof.Result.lean ====
/-
  The result array after the run: the logits.

  The output window's block index is the grid row, and a row writes its block back once, after its last column. What it
  writes is the [1024, 768] block of logits of that row's tokens (`Accumulation.out_entry`), which is the block of the
  whole [8192, 768] array of logits that the window's rectangle selects: block row `t / 4`, all 768 columns
  (`flushed_eq`). Every index `(r, q)` of the result lies in the block written back by the last point of grid row
  `r / 1024` (`cover`), so the array ends holding the logits everywhere (`final`), and the arguments are unchanged
  (`run`).
-/
import proofs.«173181_j78752520339554_1_alg».proof.Proof.Gen.KernelIdeal.Value
import proofs.«173181_j78752520339554_1_alg».proof.Proof.Accumulation

noncomputable section

namespace Cert.KernelIdeal.Result

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-- The array of logits of the two arguments as launched, as contents of the result array. -/
abbrev result (c : Dev nD) : Buf (Elt Ideal) ((c : Thread nD τ).loc main_v0) :=
  Cert.Spec.logits (m ((c : Thread nD τ).loc main_arg0)) (m ((c : Thread nD τ).loc main_arg1))

/-- WHAT A ROW'S LAST POINT WRITES BACK is its block of the array of logits. -/
theorem flushed_eq (c : Dev nD) (t : Fin cfg0.N) (hf : (cfg0.win 2).flush t = true) :
    (dats m 0 c).flushed 2 t = ((cfg0.win 2).blk t).view.read (Elt Ideal) (result m c) := by
  have h3 : t.val % 4 = 3 := (flush0_2 t).mp hf
  rw [Cert.KernelIdeal.Value.flushed2]
  funext j
  show (outsAt0 m c t.val t.isLt).1 j
    = Cert.Spec.logit (V m c main_arg0) (V m c main_arg1) ((((cfg0.win 2).blk t).view.emb j) 0) ((((cfg0.win 2).blk t).view.emb j) 1)
  refine ((congrArg (outsAt0 m c t.val t.isLt).1 (eq_ix2 j)).trans (Accumulation.out_entry m c t h3 (j 0) (j 1))).trans ?_
  have ea : Blocks.arow t (j 0) = (((cfg0.win 2).blk t).view.emb j) 0 := Fin.ext (by
    show t.val / 4 * 1024 + (j 0).val = win0_2.index t (0 : Fin 2) * 1024 + 1 * (j 0).val
    rw [(Blocks.index_out t).1]; omega)
  have eb : j 1 = (((cfg0.win 2).blk t).view.emb j) 1 := Fin.ext (by
    show (j 1).val = win0_2.index t (1 : Fin 2) * 768 + 1 * (j 1).val
    rw [(Blocks.index_out t).2]; omega)
  rw [ea, eb]

/-- An index of the array is in point `t`'s block iff each coordinate is in the block's range on its axis. -/
theorem mem_blk (t : Fin cfg0.N) (i : S8192x768.Idx) :
    i ∈ ((cfg0.win 2).blk t).view.set ↔ ∀ a : Fin 2, win0_2.index t a * S1024x768.size a ≤ (i a).val
      ∧ (i a).val < win0_2.index t a * S1024x768.size a + S1024x768.size a := by
  show i ∈ ((View.whole main_v0).slice (win0_2.rect t)).set ↔ _
  rw [View.set_slice_whole, Rect.mem_set_unit]
  exact Iff.rfl

/-- Every index of the result is in the block written back by the last point of its token's grid row. -/
theorem cover (i : S8192x768.Idx) :
    ∃ t : Fin cfg0.N, (cfg0.win 2).flush t = true ∧ i ∈ ((cfg0.win 2).blk t).view.set := by
  have hi0 : (i 0).val < 8192 := (i 0).isLt
  have hi1 : (i 1).val < 768 := (i 1).isLt
  have hN : cfg0.N = 32 := N_0
  have hlt : 4 * ((i 0).val / 1024) + 3 < cfg0.N := by rw [hN]; omega
  refine ⟨⟨4 * ((i 0).val / 1024) + 3, hlt⟩, (flush0_2 _).mpr (by show (4 * ((i 0).val / 1024) + 3) % 4 = 3; omega), ?_⟩
  rw [mem_blk]
  obtain ⟨e0, e1⟩ := Blocks.index_out ⟨4 * ((i 0).val / 1024) + 3, hlt⟩
  have ht : (4 * ((i 0).val / 1024) + 3) / 4 = (i 0).val / 1024 := by omega
  intro a
  match a with
  | ⟨0, _⟩ =>
    show win0_2.index ⟨4 * ((i 0).val / 1024) + 3, hlt⟩ (0 : Fin 2) * 1024 ≤ (i 0).val
      ∧ (i 0).val < win0_2.index ⟨4 * ((i 0).val / 1024) + 3, hlt⟩ (0 : Fin 2) * 1024 + 1024
    rw [e0]; dsimp only; omega
  | ⟨1, _⟩ =>
    show win0_2.index ⟨4 * ((i 0).val / 1024) + 3, hlt⟩ (1 : Fin 2) * 768 ≤ (i 1).val
      ∧ (i 1).val < win0_2.index ⟨4 * ((i 0).val / 1024) + 3, hlt⟩ (1 : Fin 2) * 768 + 768
    rw [e1]; omega

/-- THE ARRAY after the run: the logits. -/
theorem final (c : Dev nD) : (dats m 0 c).arrAt 2 cfg0.N = result m c :=
  (dats m 0 c).arrAt_eq_of_cover 2 (result m c) (flushed_eq m c) cover

/-- The run, read: the result array at the logits of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.KernelIdeal.Result

end
-- ==== Proof.RefValue.lean ====
/-
  The reference computes the logits.

  The reference widens both arguments to f32 (in exact arithmetic a change of float format is the identity) and contracts
  the second axis of the hidden states with the second axis of the weights in one product. Entry `(r, q)` of that product
  is `∑ k < 6144, X (r, k) * W (q, k)`: the logit of token `r` for expert `q`.
-/
import proofs.«173181_j78752520339554_1_alg».proof.Proof.Gen.ReferenceIdeal.Read
import proofs.«173181_j78752520339554_1_alg».proof.Proof.Spec

noncomputable section

open scoped BigOperators

namespace Cert.ReferenceIdeal.RefValue

open Cert.ReferenceIdeal Cert.ReferenceIdeal.Read Idealize.ShloMosaic Idealize.ShloMosaic.ValueIdx

/-- The product reads the left factor at the token's row and the contracted position, -/
theorem left_index (i : S8192x768.Idx) (k : Fin 6144) : lidx_main_v2 i k = ix2 (i 0) k :=
  funext fun a => Fin.ext (by match a with | ⟨0, _⟩ => rfl | ⟨1, _⟩ => rfl)
/-- and the right factor at the expert's row and the contracted position. -/
theorem right_index (i : S8192x768.Idx) (k : Fin 6144) : ridx_main_v2 i k = ix2 (i 1) k :=
  funext fun a => Fin.ext (by match a with | ⟨0, _⟩ => rfl | ⟨1, _⟩ => rfl)

/-- The reference's result, as a function of its two arguments, is the array of logits. -/
theorem result_eq (X : (⟨S8192x6144, .bf16⟩ : BufTy).Contents (Elt Ideal)) (W : (⟨S768x6144, .bf16⟩ : BufTy).Contents (Elt Ideal)) :
    val_main_v2 (F := Ideal) X W = Cert.Spec.logits X W := by
  funext i
  rw [val_main_v2_apply]
  unfold Cert.Spec.logits Cert.Spec.logit
  refine Finset.sum_congr rfl fun k _ => ?_
  rw [val_main_v0_apply, val_main_v1_apply, left_index, right_index]
  rfl

end Cert.ReferenceIdeal.RefValue

end
-- ==== Proof.lean ====
/-
  Router logits: a [8192, 6144] matrix of hidden states against a [768, 6144] weight matrix, contracted along the hidden
  axis, `logits (r, q) = ∑ k < 6144, X (r, k) * W (q, k)`.

  The kernel tiles the tokens in 8 row blocks of 1024 and the hidden axis in 4 blocks of 1536. For one row block it walks
  the four hidden blocks, keeping a [1024, 768] accumulator: zero at the first block, plus one block product at every
  block, copied to the result after the fourth. The reference forms the whole product at once. Over the extended reals
  (exact arithmetic, where widening bf16 to f32 changes nothing) the accumulated value is
  `(((0 + s₀) + s₁) + s₂) + s₃` with `sⱼ` the partial inner product over hidden block `j`, and that is the whole inner
  product: only associativity and commutativity of addition are used, which hold at the infinities too, so the inputs'
  finiteness is never consulted.

  The modules: `Pieces` (what one grid point leaves in the accumulator and the output block), `Payload` (one step at an
  entry), `Blocks` (which entries of the arguments a point sees), `Spec` (the logits, and the blocked form of the inner
  product), `Accumulation` (the accumulator by induction on the point), `Result` (the result array after the run),
  `RefValue` (the reference's product is the logits). The kernel does not rewrite any operation when idealized, so the
  idealization claim is trivial; the three frames are the generated ones.
-/
import proofs.«173181_j78752520339554_1_alg».proof.Defs
import proofs.«173181_j78752520339554_1_alg».proof.Proof.Gen.Kernel
import proofs.«173181_j78752520339554_1_alg».proof.Proof.Gen.Kernel.Frame
import proofs.«173181_j78752520339554_1_alg».proof.Proof.Gen.KernelIdeal
import proofs.«173181_j78752520339554_1_alg».proof.Proof.Gen.KernelIdeal.Frame
import proofs.«173181_j78752520339554_1_alg».proof.Proof.Gen.KernelIdeal.Value
import proofs.«173181_j78752520339554_1_alg».proof.Proof.Gen.ReferenceIdeal
import proofs.«173181_j78752520339554_1_alg».proof.Proof.Gen.ReferenceIdeal.Run
import proofs.«173181_j78752520339554_1_alg».proof.Proof.Gen.ReferenceIdeal.Read
import proofs.«173181_j78752520339554_1_alg».proof.Proof.Gen.Pre_finite_inputs
import proofs.«173181_j78752520339554_1_alg».proof.Proof.Result
import proofs.«173181_j78752520339554_1_alg».proof.Proof.RefValue
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Idealizing the kernel rewrote no operation. -/
theorem preserves : Cert.preserves_Kernel_KernelIdeal := trivial

/-- In exact arithmetic the kernel's result array ends at the logits of its arguments, and the reference's result is
    the logits of its arguments, which are the same arrays. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v2_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
